-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S512x256 : Shape := ⟨2, ![512, 256]⟩
abbrev S2048x256 : Shape := ⟨2, ![2048, 256]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .bf16⟩
  | .hbm, ⟨3, _⟩ => ⟨S8192x256, .bf16⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S1x8192, .f32⟩
  | .hbm, ⟨8, _⟩ => ⟨S8192x8192, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  reducesTo_S8192x256_S8192_d1 : S8192x256.ReducesTo [1] S8192
  h_S_ : 0 < S_.numel
  shapeCasts_S8192_S1x8192 : S8192.ShapeCasts S1x8192
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S512x256_S512 : S512x256.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x8192.size a
  hwx0_3 : ∀ i : grid0.Coords, EltTy.bits .f32 = 32 ∨ (Rect.block (s := S8192x8192) S512x2048.size (cc0_transform_3 i) (hinb0_3 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.Rbf.lean ====
/-
  The radial-basis-function matrix of two families of 8192 row vectors of length 256, as ONE function of the two
  argument arrays over the extended reals. Entry (r, n) is

      exp (-1 · max ((|x_r|² + |y_n|²) - 2 · ⟨x_r, y_n⟩) 0),

  the squared distance of row r of x and row n of y written by its expansion into two squared norms and an inner
  product, each a plain sum over the 256 coordinates, clamped below at zero. The three constants are kept as the
  words the programs print (-1, 2 and 0 in single precision); the same word on both sides is never evaluated.
  Both programs compute this expression in this order of operations, so no law of arithmetic beyond "a sum started
  from zero is the sum" is needed, and the inputs' finiteness is never used.
-/
import Idealize.ShloMosaic.PureOps.Ideal
import Idealize.ShloMosaic.Lib.ValueIdx

noncomputable section

namespace Cert.Rbf

open Idealize.ShloMosaic Idealize.ShloMosaic.ValueIdx

/-- The squared norm of row `r`: the sum of the squares of its 256 coordinates. -/
def sqNorm (x : FVec Ideal ⟨2, ![8192, 256]⟩ .f32) (r : Fin 8192) : EReal :=
  ∑ k : Fin 256, x (ix2 r k) * x (ix2 r k)

/-- The inner product of row `r` of `x` with row `n` of `y`. -/
def rowDot (x y : FVec Ideal ⟨2, ![8192, 256]⟩ .f32) (r n : Fin 8192) : EReal :=
  ∑ k : Fin 256, x (ix2 r k) * y (ix2 n k)

/-- One entry from its three ingredients: `exp (-1 · max ((sx + sy) - 2 · cr) 0)`. -/
def entry (sx sy cr : EReal) : EReal :=
  Ideal.exp (Ideal.ofBits .f32 0xBF800000#32
    * max ((sx + sy) - Ideal.ofBits .f32 0x40000000#32 * cr) (Ideal.ofBits .f32 0x00000000#32))

/-- The whole matrix: entry (r, n) from row r of `x` and row n of `y`. -/
def rbf (x y : FVec Ideal ⟨2, ![8192, 256]⟩ .f32) : FVec Ideal ⟨2, ![8192, 8192]⟩ .f32 :=
  fun i => entry (sqNorm x (i 0)) (sqNorm y (i 1)) (rowDot x y (i 0) (i 1))

theorem rbf_apply (x y : FVec Ideal ⟨2, ![8192, 256]⟩ .f32) (r n : Fin 8192) :
    rbf x y (ix2 r n) = entry (sqNorm x r) (sqNorm y n) (rowDot x y r n) := rfl

end Cert.Rbf

end
-- ==== Proof.TilePayload.lean ====
/-
  What the kernel body stores for one tile, read at an entry. The body holds a tile of 512 rows of x, a tile of 2048
  rows of y, and the 2048 precomputed squared norms of those rows of y as one row. Entry (p, q) of the stored tile is
  the radial-basis-function entry built from: the lane sum of the squares of row p of the x tile (a sum started from
  the neutral word, so the plain sum), entry q of the row of norms, and the matrix product of the x tile with the
  transposed y tile at (p, q), the sum over the 256 lanes. The changes of float format on the way are the identity
  on the extended reals.
-/
import proofs.«180009_j65481071396583_2_alg».proof.Proof.Gen.KernelIdeal.Skeleton
import proofs.«180009_j65481071396583_2_alg».proof.Proof.LibLayout
import proofs.«180009_j65481071396583_2_alg».proof.Proof.Rbf
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.Rbf Idealize.ShloMosaic Idealize.ShloMosaic.ValueIdx

/-- The lane sum of a 512 x 256 tile, viewed as a column and repeated along the 2048 lanes of the output tile, reads
    at (p, q) the sum of row p. -/
theorem rowSum_apply (v : FVec Ideal S512x256 .f32) (p : Fin 512) (q : Fin 2048) :
    broadcastTo S512x2048 (shapeCast S512x1 (multiReduction (F := Ideal) .add [1] S512 v 0x00000000#32
        reduces_S512x256_S512 (.inl rfl) rfl) shapeCasts_S512_S512x1) broadcasts_S512x1_S512x2048 (ix2 p q)
      = ∑ k : Fin 256, v (ix2 p k) := by
  rw [LibLayout.broadcastTo_a1_ab_apply, LibLayout.shapeCast_a_a1_apply]
  refine (Ideal.multiReduction_add_single v 0x00000000#32 reduces_S512x256_S512 (.inl rfl) rfl (ix1 p)).trans ?_
  refine Finset.sum_congr rfl fun k _ => congrArg v ?_
  funext a; apply Fin.ext
  match a with
  | ⟨0, _⟩ => rfl
  | ⟨1, _⟩ => rfl

/-- The operand indices of the tile product at output index `i` and contraction index `κ`: the left operand is read at
    (row of `i`, κ), the right one at (column of `i`, κ) — both operands are contracted along their lanes. -/
theorem lhs_row (i : S512x2048.Idx) (κ : dot_S512x256_S2048x256_S512x2048_1_1_0_0_n_n.contr.Idx) :
    (dot_S512x256_S2048x256_S512x2048_1_1_0_0_n_n.lhsIdx i κ 0).val = (i 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl
theorem lhs_lane (i : S512x2048.Idx) (κ : dot_S512x256_S2048x256_S512x2048_1_1_0_0_n_n.contr.Idx) :
    (dot_S512x256_S2048x256_S512x2048_1_1_0_0_n_n.lhsIdx i κ 1).val = (κ ⟨0, by decide⟩).val :=
  dot_S512x256_S2048x256_S512x2048_1_1_0_0_n_n.lhsIdx_val_of_single rfl i κ
theorem rhs_row (i : S512x2048.Idx) (κ : dot_S512x256_S2048x256_S512x2048_1_1_0_0_n_n.contr.Idx) :
    (dot_S512x256_S2048x256_S512x2048_1_1_0_0_n_n.rhsIdx i κ 0).val = (i 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl
theorem rhs_lane (i : S512x2048.Idx) (κ : dot_S512x256_S2048x256_S512x2048_1_1_0_0_n_n.contr.Idx) :
    (dot_S512x256_S2048x256_S512x2048_1_1_0_0_n_n.rhsIdx i κ 1).val = (κ ⟨0, by decide⟩).val :=
  dot_S512x256_S2048x256_S512x2048_1_1_0_0_n_n.rhsIdx_val_of_single rfl i κ

/-- The product of the x tile with the transposed y tile, accumulated into zero, reads at (p, q) the sum over the
    256 lanes of row p of the one times row q of the other. -/
theorem tileDot_apply (a : FVec Ideal S512x256 .bf16) (b : FVec Ideal S2048x256 .bf16) (p : Fin 512) (q : Fin 2048) :
    matmul (F := Ideal) dot_S512x256_S2048x256_S512x2048_1_1_0_0_n_n none a b (constant S512x2048 .f32 0x00000000#32) (ix2 p q)
      = ∑ k : Fin 256, a (ix2 p k) * b (ix2 q k) := by
  simp only [matmul]
  rw [Ideal.matmul_constant_zero_apply,
    ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 p q) ((contrEquiv1 dot_S512x256_S2048x256_S512x2048_1_1_0_0_n_n 256 rfl rfl).symm k) = ix2 p k :=
    funext fun ax => Fin.ext (by
      match ax with
      | ⟨0, _⟩ => exact lhs_row _ _
      | ⟨1, _⟩ => exact (lhs_lane _ _).trans hk)
  have er : dot_S512x256_S2048x256_S512x2048_1_1_0_0_n_n.rhsIdx (ix2 p q) ((contrEquiv1 dot_S512x256_S2048x256_S512x2048_1_1_0_0_n_n 256 rfl rfl).symm k) = ix2 q k :=
    funext fun ax => Fin.ext (by
      match ax with
      | ⟨0, _⟩ => exact rhs_row _ _
      | ⟨1, _⟩ => exact (rhs_lane _ _).trans hk)
  rw [el, er]

/-- THE STORED TILE at (p, q): the radial-basis-function entry of row p of the x tile, the q-th precomputed norm and
    row q of the y tile. -/
theorem payload_apply (x : Vec Ideal S512x256 .bf16) (y : Vec Ideal S2048x256 .bf16) (ny : Vec Ideal S1x2048 .f32)
    (p : Fin 512) (q : Fin 2048) :
    k0_pay1 (F := Ideal) x y ny (ix2 p q)
      = entry (∑ k : Fin 256, x (ix2 p k) * x (ix2 p k)) (ny (ix2 (0 : Fin 1) q)) (∑ k : Fin 256, x (ix2 p k) * y (ix2 q k)) := by
  unfold k0_pay1
  simp only [shapeCast_self]
  show Ideal.exp (Ideal.ofBits .f32 0xBF800000#32 * max ((_ + _) - Ideal.ofBits .f32 0x40000000#32 * _) (Ideal.ofBits .f32 0x00000000#32)) = _
  unfold entry
  refine congrArg Ideal.exp (congrArg (Ideal.ofBits .f32 0xBF800000#32 * ·) (congrArg (max · _) ?_))
  refine congrArg₂ (· - ·) (congrArg₂ (· + ·) ?_ ?_) (congrArg (Ideal.ofBits .f32 0x40000000#32 * ·) ?_)
  · exact rowSum_apply _ p q
  · exact broadcastTo_1b_ab_apply _ _ p q
  · exact tileDot_apply _ _ p q

/-- THE STORED TILE inside the whole matrix. If row p of the x tile is row r of the array `X`, row q of the y tile is
    row n of the array `Y`, and the q-th precomputed norm is the squared norm of that row of `Y`, then entry (p, q) of
    the stored tile is entry (r, n) of the radial-basis-function matrix of `X` and `Y`. -/
theorem payload_is_rbf (X Y : FVec Ideal ⟨2, ![8192, 256]⟩ .f32)
    (x : Vec Ideal S512x256 .bf16) (y : Vec Ideal S2048x256 .bf16) (ny : Vec Ideal S1x2048 .f32)
    (p : Fin 512) (q : Fin 2048) (r n : Fin 8192)
    (hx : ∀ k : Fin 256, x (ix2 p k) = X (ix2 r k)) (hy : ∀ k : Fin 256, y (ix2 q k) = Y (ix2 n k))
    (hny : ny (ix2 (0 : Fin 1) q) = sqNorm Y n) :
    k0_pay1 (F := Ideal) x y ny (ix2 p q) = rbf X Y (ix2 r n) := by
  rw [payload_apply, rbf_apply, hny]
  unfold sqNorm rowDot
  refine congrArg₂ (fun s d => entry s (sqNorm Y n) d) ?_ ?_
  · exact Finset.sum_congr rfl fun k _ => by rw [hx k]
  · exact Finset.sum_congr rfl fun k _ => by rw [hx k, hy k]

end Cert.KernelIdeal.Tile

end
-- ==== Proof.RegionEntry.lean ====
/-
  What the three input arrays of the tiled computation hold when it starts. The host has narrowed x and y to half
  precision (the identity on the extended reals), and has summed the squares of each row of y, from the zero word,
  into a vector that it then views as one row of 8192 entries: entry (0, n) of that row is the squared norm of row n
  of y.
-/
import proofs.«180009_j65481071396583_2_alg».proof.Proof.Gen.KernelIdeal.Frame
import proofs.«180009_j65481071396583_2_alg».proof.Proof.Rbf
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Entry

open Cert.KernelIdeal Cert.KernelIdeal.Gen Cert.Rbf Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The narrowed copy of x is x. -/
theorem narrowed_x (c : Dev nD) :
    (V m c main_v0 : S8192x256.Idx → EReal) = (m ((c : Thread nD τ).loc main_arg0) : S8192x256.Idx → EReal) := by
  dsimp only [V, hostOps0]
  after_results
  rfl

/-- The narrowed copy of y is y. -/
theorem narrowed_y (c : Dev nD) :
    (V m c main_v1 : S8192x256.Idx → EReal) = (m ((c : Thread nD τ).loc main_arg1) : S8192x256.Idx → EReal) := by
  dsimp only [V, hostOps0]
  after_results
  rfl

/-- The row of norms, as the host's operations of y. -/
theorem norms_term (c : Dev nD) :
    (V m c main_v4 : S1x8192.Idx → EReal)
      = shapeCast S1x8192 (Host.reduceAdd (F := Ideal)
          (mulf (m ((c : Thread nD τ).loc main_arg1) : FVec Ideal S8192x256 .f32) (m ((c : Thread nD τ).loc main_arg1)))
          (constant (F := Ideal) S_ .f32 0x00000000#32) reducesTo_S8192x256_S8192_d1 h_S_) shapeCasts_S8192_S1x8192 := by
  dsimp only [V, hostOps0]
  after_results
  rfl

/-- A row-wise host sum of squares started from the zero word, viewed as one row, holds at (0, n) the squared norm
    of row n. -/
theorem norms_row_apply (y : FVec Ideal S8192x256 .f32) (n : Fin 8192) :
    shapeCast S1x8192 (Host.reduceAdd (F := Ideal) (mulf y y) (constant (F := Ideal) S_ .f32 0x00000000#32)
        reducesTo_S8192x256_S8192_d1 h_S_) shapeCasts_S8192_S1x8192 (ix2 (0 : Fin 1) n) = sqNorm y n := by
  rw [shapeCast_a_1a_apply]
  simp only [Host.reduceAdd, Ideal.hostReduceAdd_def]
  rw [Ideal.hostReduceAdd_single reducesTo_S8192x256_S8192_d1 (by decide)]
  rw [constant_apply, Ideal.ofBits_zero_f32, zero_add]
  unfold sqNorm
  refine Finset.sum_congr rfl fun k _ => ?_
  have e : (Shape.Reduces.lift (s := S8192x256) (t := S8192) (by decide) (ix1 n) k : S8192x256.Idx) = ix2 n k :=
    funext fun a => Fin.ext (by match a with | ⟨0, _⟩ => rfl | ⟨1, _⟩ => rfl)
  rw [mulf_apply]
  exact congrArg (fun j => y j * y j) e

/-- The row of norms the tiled computation reads: entry (0, n) is the squared norm of row n of y. -/
theorem norms_apply (c : Dev nD) (n : Fin 8192) :
    (V m c main_v4 : S1x8192.Idx → EReal) (ix2 (0 : Fin 1) n) = sqNorm (m ((c : Thread nD τ).loc main_arg1)) n := by
  rw [norms_term]
  exact norms_row_apply _ n

end Cert.KernelIdeal.Entry

end
-- ==== Proof.WholeMatrix.lean ====
/-
  From tiles to the whole matrix. The grid has 4 x 16 points; the point whose output tile sits at block row a
  (of 16, 512 rows each) and block column b (of 4, 2048 columns each) reads rows 512a .. 512a+511 of x, rows
  2048b .. 2048b+2047 of y and the matching 2048 precomputed norms. So the tile it writes back is exactly that block
  of the radial-basis-function matrix of the two argument arrays; the 64 blocks tile the 8192 x 8192 result, the one
  covering entry (r, n) being block (r / 512, n / 2048); hence the result array ends holding the whole matrix.
-/
import proofs.«180009_j65481071396583_2_alg».proof.Proof.Gen.KernelIdeal.Value
import proofs.«180009_j65481071396583_2_alg».proof.Proof.TilePayload
import proofs.«180009_j65481071396583_2_alg».proof.Proof.RegionEntry
import Idealize.ShloMosaic.Lib.Pipeline.Value

noncomputable section

namespace Cert.KernelIdeal.Whole

open Cert.KernelIdeal Cert.KernelIdeal.Gen Cert.Rbf Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The matrix the result array is to hold: the radial-basis-function matrix of the two argument arrays. -/
abbrev result (c : Dev nD) : FVec Ideal S8192x8192 .f32 :=
  rbf (m ((c : Thread nD τ).loc main_arg0)) (m ((c : Thread nD τ).loc main_arg1))

/-- How the input tiles move with the output tile, decided over the 64 grid points: the x tile has the output's
    block row, the y tile and the norms the output's block column, every other block coordinate is zero; and the
    output's block coordinates stay below 16 and 4. -/
theorem tile_index : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every block of the result is some grid point's. -/
theorem tile_onto : ∀ (a : Fin 16) (b : Fin 4), ∃ t : Fin cfg0.N, win0_3.index t = ![a.val, b.val] :=
  (by decide +kernel : ∀ (a : Fin 16) (b : Fin 4), ∃ t : Fin grid0.N, win0_3.index t = ![a.val, b.val])

/-- Row p of the x tile at point `t` is row (block row of the output) · 512 + p of the argument x. -/
theorem xtile_apply (c : Dev nD) (t : Fin cfg0.N) (p : Fin 512) (k : Fin 256) (r : Fin 8192)
    (hr : r.val = win0_3.index t (0 : Fin 2) * 512 + p.val) :
    (iblk m c 0 t : Vec Ideal S512x256 .bf16) (ix2 p k)
      = (m ((c : Thread nD τ).loc main_arg0) : S8192x256.Idx → EReal) (ix2 r k) := by
  obtain ⟨e0, e1, -⟩ := tile_index t
  show (V m c main_v0 : S8192x256.Idx → EReal) (((cfg0.win 0).blk t).view.emb (ix2 p k)) = _
  rw [Entry.narrowed_x]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 256 + 1 * k.val = k.val; rw [e1]; omega

/-- Row q of the y tile at point `t` is row (block column of the output) · 2048 + q of the argument y. -/
theorem ytile_apply (c : Dev nD) (t : Fin cfg0.N) (q : Fin 2048) (k : Fin 256) (n : Fin 8192)
    (hn : n.val = win0_3.index t (1 : Fin 2) * 2048 + q.val) :
    (iblk m c 1 t : Vec Ideal S2048x256 .bf16) (ix2 q k)
      = (m ((c : Thread nD τ).loc main_arg1) : S8192x256.Idx → EReal) (ix2 n k) := by
  obtain ⟨-, -, e2, e3, -⟩ := tile_index t
  show (V m c main_v1 : S8192x256.Idx → EReal) (((cfg0.win 1).blk t).view.emb (ix2 q k)) = _
  rw [Entry.narrowed_y]
  refine congrArg _ (funext fun a => Fin.ext ?_)
  match a with
  | ⟨0, _⟩ => show win0_1.index t (0 : Fin 2) * 2048 + 1 * q.val = n.val; rw [e2, hn]; omega
  | ⟨1, _⟩ => show win0_1.index t (1 : Fin 2) * 256 + 1 * k.val = k.val; rw [e3]; omega

/-- Entry q of the tile of norms at point `t` is the squared norm of that row of y. -/
theorem normtile_apply (c : Dev nD) (t : Fin cfg0.N) (q : Fin 2048) (n : Fin 8192)
    (hn : n.val = win0_3.index t (1 : Fin 2) * 2048 + q.val) :
    (iblk m c 2 t : Vec Ideal S1x2048 .f32) (ix2 (0 : Fin 1) q) = sqNorm (m ((c : Thread nD τ).loc main_arg1)) n := by
  obtain ⟨-, -, -, -, e4, e5, -⟩ := tile_index t
  show (V m c main_v4 : S1x8192.Idx → EReal) (((cfg0.win 2).blk t).view.emb (ix2 (0 : Fin 1) q)) = _
  refine Eq.trans (congrArg (V m c main_v4 : S1x8192.Idx → EReal) (funext fun a => Fin.ext ?_)) (Entry.norms_apply m c n)
  match a with
  | ⟨0, _⟩ => show win0_2.index t (0 : Fin 2) * 1 + 1 * 0 = 0; rw [e4]
  | ⟨1, _⟩ => show win0_2.index t (1 : Fin 2) * 2048 + 1 * q.val = n.val; rw [e5, hn]; omega

/-- WHAT POINT `t` WRITES BACK is block `t` of the matrix. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S512x256) hz, View.ld_unit_zero (S := S2048x256) hz, View.ld_unit_zero (S := S1x2048) hz]
  obtain ⟨-, -, -, -, -, -, b0, b1⟩ := tile_index t
  funext j
  revert j
  show ∀ j : S512x2048.Idx, k0_pay1 (F := Ideal) (iblk m c 0 t) (iblk m c 1 t) (iblk m c 2 t) j
      = result m c (((cfg0.win 3).blk t).view.emb j)
  intro j
  obtain ⟨p, q, rfl⟩ : ∃ (p : Fin 512) (q : Fin 2048), j = ix2 p q := ⟨j 0, j 1, eq_ix2 j⟩
  have hr : win0_3.index t (0 : Fin 2) * 512 + p.val < 8192 := by have := p.isLt; omega
  have hn : win0_3.index t (1 : Fin 2) * 2048 + q.val < 8192 := by have := q.isLt; omega
  have hemb : (((cfg0.win 3).blk t).view.emb (ix2 p q) : S8192x8192.Idx)
      = ix2 (⟨win0_3.index t (0 : Fin 2) * 512 + p.val, hr⟩ : Fin 8192) (⟨win0_3.index t (1 : Fin 2) * 2048 + q.val, hn⟩ : Fin 8192) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 2048 + 1 * q.val = win0_3.index t (1 : Fin 2) * 2048 + q.val; omega
  rw [hemb]
  exact Tile.payload_is_rbf _ _ (iblk m c 0 t) (iblk m c 1 t) (iblk m c 2 t) p q _ _
    (fun k => xtile_apply m c t p k _ rfl) (fun k => ytile_apply m c t q k _ rfl) (normtile_apply m c t q _ rfl)

/-- An entry of the matrix is in point `t`'s block iff each coordinate is in the block's range on its axis. -/
theorem mem_tile (t : Fin cfg0.N) (i : S8192x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v5).slice (win0_3.rect t)).set ↔ _
  rw [View.set_slice_whole, Rect.mem_set_unit]
  exact Iff.rfl

/-- The blocks cover the matrix: entry (r, n) is in block (r / 512, n / 2048). -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := tile_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_tile]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- THE RESULT ARRAY after the run is the whole matrix. -/
theorem final (c : Dev nD) : (dats m 0 c).arrAt 3 cfg0.N = result m c :=
  (dats m 0 c).arrAt_eq_of_cover 3 (result m c) (fun t _ => flushed_eq m c t) covered

/-- The run, read: the result array at the radial-basis-function matrix of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRbf.lean ====
/-
  The reference computes the radial-basis-function matrix. Its operations, read one at a time at an entry (r, n):
  the two row-wise sums of squares (each started from the zero word, so each is the plain sum), viewed as a column
  and as a row and repeated over the 8192 x 8192 matrix; the product of x with the transpose of y as the sum over
  the 256 coordinates; then sum of norms, minus twice the product, the maximum with zero, the product with -1 and
  the exponential. That is `Rbf.rbf` entry by entry.
-/
import proofs.«180009_j65481071396583_2_alg».proof.Proof.Gen.ReferenceIdeal.Read
import proofs.«180009_j65481071396583_2_alg».proof.Proof.Rbf

noncomputable section

namespace Cert.ReferenceIdeal.RefValue

open Cert.ReferenceIdeal Cert.ReferenceIdeal.Read Cert.Rbf Idealize.ShloMosaic Idealize.ShloMosaic.ValueIdx

/-- The reference's last stage, as a function of the two argument arrays, is the matrix `rbf`. -/
theorem ref_is_rbf (x0 x1 : FVec Ideal S8192x256 .f32) : val_main_v17 (F := Ideal) x0 x1 = rbf x0 x1 := by
  funext i
  obtain ⟨r, n, rfl⟩ : ∃ (r : Fin 8192) (n : Fin 8192), i = ix2 r n := ⟨i 0, i 1, eq_ix2 i⟩
  -- the coordinates each sum runs over: row r of x, row n of y
  have e1 : ∀ k, idx_main_v1 (idx_main_v5 (idx_main_v7 (ix2 r n))) k = ix2 r k := fun k =>
    funext fun a => Fin.ext (by match a with | ⟨0, _⟩ => rfl | ⟨1, _⟩ => rfl)
  have e3 : ∀ k, idx_main_v3 (idx_main_v6 (idx_main_v8 (ix2 r n))) k = ix2 n k := fun k =>
    funext fun a => Fin.ext (by match a with | ⟨0, _⟩ => rfl | ⟨1, _⟩ => rfl)
  have el : ∀ k, lidx_main_v4 (ix2 r n) k = ix2 r k := fun k =>
    funext fun a => Fin.ext (by match a with | ⟨0, _⟩ => rfl | ⟨1, _⟩ => rfl)
  have er : ∀ k, ridx_main_v4 (ix2 r n) k = ix2 n k := fun k =>
    funext fun a => Fin.ext (by match a with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply,
    val_main_v1_apply, val_main_v8_apply, val_main_v6_apply, val_main_v3_apply]
  simp only [val_main_v0_apply, val_main_v2_apply, val_main_cst_apply, val_main_cst_0_apply, e1, e3, el, er,
    rbf_apply, entry, sqNorm, rowDot, Ideal.mulf_def, Ideal.addf_def, Ideal.subf_def, Ideal.maximumf_def,
    Ideal.hostUnary_exp_def, Ideal.ofBits_def, Ideal.ofBits_zero_f32, zero_add]

end Cert.ReferenceIdeal.RefValue

end
-- ==== Proof.lean ====
/-
  The tiled radial-basis-function kernel against its plain reference, over the extended reals.

  Both programs compute, for rows x_r of x and y_n of y (8192 rows of 256 numbers each),

      out(r, n) = exp (-1 · max ((|x_r|² + |y_n|²) - 2 · ⟨x_r, y_n⟩) 0)

  with the same three constants and in the same order of operations. The reference does it on whole arrays. The
  kernel's program first narrows x and y to half precision (the identity on the extended reals) and sums the squares
  of the rows of y into a row of norms; then a 4 x 16 grid of tiles each takes 512 rows of x, 2048 rows of y and the
  matching norms, sums the squares of its rows of x along the lanes, multiplies the x tile with the transposed y tile,
  and stores the 512 x 2048 tile of results. The modules below read the stored tile at an entry (Proof/TilePayload),
  the arrays the tiles are cut from (Proof/RegionEntry), put the 64 tiles together into the whole matrix
  (Proof/WholeMatrix), and read the reference one operation at a time (Proof/RefRbf); both sides are the one function
  `Cert.Rbf.rbf` of the arguments (Proof/Rbf). No law of arithmetic beyond "a sum started from zero is the sum" is
  used, so the inputs' finiteness is not needed for the values.
-/
import proofs.«180009_j65481071396583_2_alg».proof.Defs
import proofs.«180009_j65481071396583_2_alg».proof.Proof.Gen.Kernel
import proofs.«180009_j65481071396583_2_alg».proof.Proof.Gen.Kernel.Frame
import proofs.«180009_j65481071396583_2_alg».proof.Proof.Gen.KernelIdeal
import proofs.«180009_j65481071396583_2_alg».proof.Proof.Gen.KernelIdeal.Frame
import proofs.«180009_j65481071396583_2_alg».proof.Proof.Gen.KernelIdeal.Value
import proofs.«180009_j65481071396583_2_alg».proof.Proof.Gen.ReferenceIdeal
import proofs.«180009_j65481071396583_2_alg».proof.Proof.Gen.ReferenceIdeal.Run
import proofs.«180009_j65481071396583_2_alg».proof.Proof.Gen.ReferenceIdeal.Read
import proofs.«180009_j65481071396583_2_alg».proof.Proof.Gen.Pre_finite_inputs
import proofs.«180009_j65481071396583_2_alg».proof.Proof.WholeMatrix
import proofs.«180009_j65481071396583_2_alg».proof.Proof.RefRbf
import Idealize.ShloMosaic.Adequacy
import Idealize.ShloMosaic.Init

noncomputable section

namespace Cert.Proof

open Idealize.ShloMosaic Idealize.ShloMosaic.TcCoe Idealize.SL.Sem

/-- The kernel's program as printed runs to the end and leaves its arguments alone. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference is a straight line of whole-array operations: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From arguments that agree, the kernel's result array ends at the radial-basis-function matrix of the arguments
    (the 64 tiles put together) and the reference's at the same matrix (its operations read one at a time). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_is_rbf, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
